-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x7168 : Shape := ⟨3, ![4, 4096, 7168]⟩
abbrev S4096x7168 : Shape := ⟨2, ![4096, 7168]⟩
abbrev S7168 : Shape := ⟨1, ![7168]⟩
abbrev S_ : Shape := ⟨0, ![]⟩

class Facts : Prop where
  bcast_S_S4x4096x7168 : S_.BroadcastsInDim S4x4096x7168 (![] : Fin 0 → Fin S4x4096x7168.rank)
  reducesTo_S4x4096x7168_S_d0_1_2 : S4x4096x7168.ReducesTo [0, 1, 2] S_
  h_S_ : 0 < S_.numel
  bcast_S_S4096x7168 : S_.BroadcastsInDim S4096x7168 (![] : Fin 0 → Fin S4096x7168.rank)
  reducesTo_S4096x7168_S_d0_1 : S4096x7168.ReducesTo [0, 1] S_
  bcast_S_S7168 : S_.BroadcastsInDim S7168 (![] : Fin 0 → Fin S7168.rank)
  reducesTo_S7168_S_d0 : S7168.ReducesTo [0] S_

variable [Facts]

def fn {F : FTy → Type} [FloatOps F] (main_arg0 : FVec F S4x4096x7168 .f32) (main_arg1 : FVec F S4096x7168 .f32) (main_arg2 : FVec F S7168 .f32) : IVec S_ 1 :=
  let main_v0 : FVec F S4x4096x7168 .f32 := Host.absf main_arg0
  let main_cst : FVec F S_ .f32 := constant S_ .f32 0x7F800000#32
  let main_v1 : FVec F S4x4096x7168 .f32 := broadcastInDim S4x4096x7168 ![] bcast_S_S4x4096x7168 main_cst
  let main_v2 : IVec S4x4096x7168 1 := cmpf .olt main_v0 main_v1
  let main_c : IVec S_ 1 := constantI S_ 1 1#1
  let main_v3 : IVec S_ 1 := (fun x v => Host.reduce IntOp.andi x v reducesTo_S4x4096x7168_S_d0_1_2 h_S_) main_v2 main_c
  let main_v4 : FVec F S4096x7168 .f32 := Host.absf main_arg1
  let main_cst_0 : FVec F S_ .f32 := constant S_ .f32 0x7F800000#32
  let main_v5 : FVec F S4096x7168 .f32 := broadcastInDim S4096x7168 ![] bcast_S_S4096x7168 main_cst_0
  let main_v6 : IVec S4096x7168 1 := cmpf .olt main_v4 main_v5
  let main_c_1 : IVec S_ 1 := constantI S_ 1 1#1
  let main_v7 : IVec S_ 1 := (fun x v => Host.reduce IntOp.andi x v reducesTo_S4096x7168_S_d0_1 h_S_) main_v6 main_c_1
  let main_v8 : IVec S_ 1 := andi main_v3 main_v7
  let main_v9 : FVec F S7168 .f32 := Host.absf main_arg2
  let main_cst_2 : FVec F S_ .f32 := constant S_ .f32 0x7F800000#32
  let main_v10 : FVec F S7168 .f32 := broadcastInDim S7168 ![] bcast_S_S7168 main_cst_2
  let main_v11 : IVec S7168 1 := cmpf .olt main_v9 main_v10
  let main_c_3 : IVec S_ 1 := constantI S_ 1 1#1
  let main_v12 : IVec S_ 1 := (fun x v => Host.reduce IntOp.andi x v reducesTo_S7168_S_d0 h_S_) main_v11 main_c_3
  let main_v13 : IVec S_ 1 := andi main_v8 main_v12
  main_v13
-- ==== Kernel.lean ====
abbrev S4x4096x7168 : Shape := ⟨3, ![4, 4096, 7168]⟩
abbrev S4096x7168 : Shape := ⟨2, ![4096, 7168]⟩
abbrev S7168 : Shape := ⟨1, ![7168]⟩
abbrev S1x7168 : Shape := ⟨2, ![1, 7168]⟩
abbrev S4x64x7168 : Shape := ⟨3, ![4, 64, 7168]⟩
abbrev S64x7168 : Shape := ⟨2, ![64, 7168]⟩
abbrev S1x64x7168 : Shape := ⟨3, ![1, 64, 7168]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x7168, .f32⟩
  | .hbm, ⟨1, _⟩ => ⟨S4096x7168, .f32⟩
  | .hbm, ⟨2, _⟩ => ⟨S7168, .f32⟩
  | .hbm, ⟨3, _⟩ => ⟨S1x7168, .f32⟩
  | .hbm, ⟨4, _⟩ => ⟨S4096x7168, .f32⟩
  | .hbm, ⟨5, _⟩ => ⟨S4096x7168, .f32⟩
  | .local _ .vmem, ⟨0, _⟩ => ⟨S4x64x7168, .f32⟩
  | .local _ .vmem, ⟨1, _⟩ => ⟨S4x64x7168, .f32⟩
  | .local _ .vmem, ⟨2, _⟩ => ⟨S64x7168, .f32⟩
  | .local _ .vmem, ⟨3, _⟩ => ⟨S64x7168, .f32⟩
  | .local _ .vmem, ⟨4, _⟩ => ⟨S1x7168, .f32⟩
  | .local _ .vmem, ⟨5, _⟩ => ⟨S64x7168, .f32⟩
  | .local _ .vmem, ⟨6, _⟩ => ⟨S64x7168, .f32⟩
  | .local _ .vmem, ⟨7, _⟩ => ⟨S64x7168, .f32⟩
  | .local _ .vmem, ⟨8, _⟩ => ⟨S64x7168, .f32⟩
  | _, _ => ⟨S4x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S7168_S1x7168 : S7168.ShapeCasts S1x7168
  inb_S4x64x7168_S1x64x7168_0_0_0 : ∀ a, (![0, 0, 0] : Fin 3 → Nat) a + S1x64x7168.size a ≤ S4x64x7168.size a
  h_S1x64x7168 : 0 < S1x64x7168.numel
  shapeCasts_S1x64x7168_S64x7168 : S1x64x7168.ShapeCasts S64x7168
  inb_S4x64x7168_S1x64x7168_1_0_0 : ∀ a, (![1, 0, 0] : Fin 3 → Nat) a + S1x64x7168.size a ≤ S4x64x7168.size a
  inb_S4x64x7168_S1x64x7168_2_0_0 : ∀ a, (![2, 0, 0] : Fin 3 → Nat) a + S1x64x7168.size a ≤ S4x64x7168.size a
  inb_S4x64x7168_S1x64x7168_3_0_0 : ∀ a, (![3, 0, 0] : Fin 3 → Nat) a + S1x64x7168.size a ≤ S4x64x7168.size a
  inb_S64x7168_S64x7168_0_0 : ∀ a, (![0, 0] : Fin 2 → Nat) a + S64x7168.size a ≤ S64x7168.size a
  h_S64x7168 : 0 < S64x7168.numel
  reduces_S64x7168_S64 : S64x7168.Reduces [1] S64
  shapeCasts_S64_S64x1 : S64.ShapeCasts S64x1
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  broadcasts_S64x1_S64x7168 : S64x1.Broadcasts S64x7168
  broadcasts_S1x7168_S64x7168 : S1x7168.Broadcasts S64x7168
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x7168.size a ≤ S4x4096x7168.size a
  hwx0_0 : ∀ i : grid0.Coords, EltTy.bits .f32 = 32 ∨ (Rect.block (s := S4x4096x7168) S4x64x7168.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x7168.size a ≤ S4096x7168.size a
  hwx0_1 : ∀ i : grid0.Coords, EltTy.bits .f32 = 32 ∨ (Rect.block (s := S4096x7168) S64x7168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7168.size a ≤ S1x7168.size a
  hwx0_2 : ∀ i : grid0.Coords, EltTy.bits .f32 = 32 ∨ (Rect.block (s := S1x7168) S1x7168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x7168.size a ≤ S4096x7168.size a
  hwx0_3 : ∀ i : grid0.Coords, EltTy.bits .f32 = 32 ∨ (Rect.block (s := S4096x7168) S64x7168.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x7168.size a ≤ S4096x7168.size a
  hwx0_4 : ∀ i : grid0.Coords, EltTy.bits .f32 = 32 ∨ (Rect.block (s := S4096x7168) S64x7168.size (cc0_transform_4 i) (hinb0_4 i)).WholeWords (EltTy.packing .f32)

variable [Facts₀]

abbrev win0_0 : Pipeline.Window sig grid0 :=
  Pipeline.Window.ofSpec (Memref.whole main_arg0) S4x64x7168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x7168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x7168.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x7168.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x7168 : Shape := ⟨3, ![4, 4096, 7168]⟩
abbrev S4096x7168 : Shape := ⟨2, ![4096, 7168]⟩
abbrev S7168 : Shape := ⟨1, ![7168]⟩
abbrev S_ : Shape := ⟨0, ![]⟩
abbrev S4096 : Shape := ⟨1, ![4096]⟩
abbrev S4096x1 : Shape := ⟨2, ![4096, 1]⟩
abbrev S1x7168 : Shape := ⟨2, ![1, 7168]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x7168, .f32⟩
  | .hbm, ⟨1, _⟩ => ⟨S4096x7168, .f32⟩
  | .hbm, ⟨2, _⟩ => ⟨S7168, .f32⟩
  | .hbm, ⟨3, _⟩ => ⟨S_, .f32⟩
  | .hbm, ⟨4, _⟩ => ⟨S4096x7168, .f32⟩
  | .hbm, ⟨5, _⟩ => ⟨S4096x7168, .f32⟩
  | .hbm, ⟨6, _⟩ => ⟨S4096x7168, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x7168, .f32⟩
  | .hbm, ⟨18, _⟩ => ⟨S4096x7168, .f32⟩
  | .hbm, ⟨19, _⟩ => ⟨S1x7168, .f32⟩
  | .hbm, ⟨20, _⟩ => ⟨S4096x7168, .f32⟩
  | .hbm, ⟨21, _⟩ => ⟨S4096x7168, .f32⟩
  | _, _ => ⟨S4x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x4096x7168_S4096x7168_d0 : S4x4096x7168.ReducesTo [0] S4096x7168
  h_S_ : 0 < S_.numel
  reducesTo_S4096x7168_S4096_d1 : S4096x7168.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x7168_0_1 : S4096x1.BroadcastsInDim S4096x7168 (![0, 1] : Fin 2 → Fin S4096x7168.rank)
  bcast_S7168_S1x7168_1 : S7168.BroadcastsInDim S1x7168 (![1] : Fin 1 → Fin S1x7168.rank)
  bcast_S1x7168_S4096x7168_0_1 : S1x7168.BroadcastsInDim S4096x7168 (![0, 1] : Fin 2 → Fin S4096x7168.rank)

variable [Facts₀]

class Facts : Prop extends Facts₀ where

variable [Facts]
-- ==== Proof.Spec.lean ====
/-
  The function both programs compute, entry by entry, on the extended reals.

  Four partial results `h 0 … h 3` of shape [4096, 7168] are added in order and the residual `r` is added to the
  total: that is the new residual stream (`resid`). Each of its rows is then scaled by the reciprocal square root of
  the row's mean square plus a small constant (`rowScale`: the mean is the row's sum of squares divided by 7168), and
  column `q` is multiplied by the weight `w q` (`normed`). The two float literals are kept as the binary words both
  programs spell, so their values are never needed.
-/
import Idealize.ShloMosaic.Lib.ValueIdx
import Idealize.ShloMosaic.PureOps.Ideal

noncomputable section

namespace Cert.ResidNorm

open Idealize.ShloMosaic Idealize.ShloMosaic.ValueIdx

/-- Entry `(p, q)` of the new residual stream: the four partial results added in order, then the residual. -/
def resid (h : (⟨3, ![4, 4096, 7168]⟩ : Shape).Idx → EReal) (r : (⟨2, ![4096, 7168]⟩ : Shape).Idx → EReal)
    (p : Fin 4096) (q : Fin 7168) : EReal :=
  h (ix3 (0 : Fin 4) p q) + h (ix3 (1 : Fin 4) p q) + h (ix3 (2 : Fin 4) p q) + h (ix3 (3 : Fin 4) p q) + r (ix2 p q)

/-- The factor of row `p`: one over the square root of (the row's sum of squares divided by 7168, plus the small
    constant). -/
def rowScale (h : (⟨3, ![4, 4096, 7168]⟩ : Shape).Idx → EReal) (r : (⟨2, ![4096, 7168]⟩ : Shape).Idx → EReal)
    (p : Fin 4096) : EReal :=
  Ideal.rsqrt (Ideal.div (∑ k : Fin 7168, resid h r p k * resid h r p k) (Ideal.ofBits .f32 0x45E00000#32)
    + Ideal.ofBits .f32 0x358637BD#32)

/-- The new residual stream as an array. -/
def residArr (h : (⟨3, ![4, 4096, 7168]⟩ : Shape).Idx → EReal) (r : (⟨2, ![4096, 7168]⟩ : Shape).Idx → EReal) :
    (⟨2, ![4096, 7168]⟩ : Shape).Idx → EReal :=
  fun i => resid h r (i 0) (i 1)

/-- The normalised array: entry `(p, q)` of the residual stream times row `p`'s factor times weight `q`. -/
def normedArr (h : (⟨3, ![4, 4096, 7168]⟩ : Shape).Idx → EReal) (r : (⟨2, ![4096, 7168]⟩ : Shape).Idx → EReal)
    (w : (⟨1, ![7168]⟩ : Shape).Idx → EReal) : (⟨2, ![4096, 7168]⟩ : Shape).Idx → EReal :=
  fun i => resid h r (i 0) (i 1) * rowScale h r (i 0) * w (ix1 (i 1))

theorem residArr_apply (h : (⟨3, ![4, 4096, 7168]⟩ : Shape).Idx → EReal) (r : (⟨2, ![4096, 7168]⟩ : Shape).Idx → EReal)
    (p : Fin 4096) (q : Fin 7168) : residArr h r (ix2 p q) = resid h r p q := rfl

theorem normedArr_apply (h : (⟨3, ![4, 4096, 7168]⟩ : Shape).Idx → EReal) (r : (⟨2, ![4096, 7168]⟩ : Shape).Idx → EReal)
    (w : (⟨1, ![7168]⟩ : Shape).Idx → EReal) (p : Fin 4096) (q : Fin 7168) :
    normedArr h r w (ix2 p q) = resid h r p q * rowScale h r p * w (ix1 q) := rfl

end Cert.ResidNorm

end
-- ==== Proof.RefSpec.lean ====
/-
  The reference computes the specification.

  Read one operation at a time, the host program sums the four partial results over the leading axis starting from
  zero, adds the residual, squares, sums each row starting from zero, divides by 7168, adds the small constant,
  takes the reciprocal square root, broadcasts that column along the rows, and multiplies by the residual stream
  and by the weights broadcast down the columns. Zero plus a sum is the sum, a sum over four terms is the four
  terms added in order, and the broadcasts read where the coordinates say: the result is `normedArr`, and the
  second result `residArr`.
-/
import proofs.«170400_j56994216018564_2_alg».proof.Proof.Gen.ReferenceIdeal.Read
import proofs.«170400_j56994216018564_2_alg».proof.Proof.Spec
import Idealize.ShloMosaic.Lib.ValueIdx
import Idealize.ShloMosaic.PureOps.Ideal.Laws

noncomputable section

namespace Cert.ReferenceIdeal.IsSpec

open Cert.ReferenceIdeal Cert.ReferenceIdeal.Read Idealize.ShloMosaic Idealize.ShloMosaic.ValueIdx Cert.ResidNorm

/-- The leading-axis sum at `(p, q)` reads partial result `k` at `(k, p, q)`. -/
theorem idx_v0 (p : Fin 4096) (q : Fin 7168) (k : Fin 4) : idx_main_v0 (ix2 p q) k = ix3 k p q :=
  funext fun a => Fin.ext (by match a with | ⟨0, _⟩ => rfl | ⟨1, _⟩ => rfl | ⟨2, _⟩ => rfl)

/-- The row sum at `p` reads column `k` at `(p, k)`. -/
theorem idx_v3 (p : Fin 4096) (k : Fin 7168) : idx_main_v3 (ix1 p) k = ix2 p k :=
  funext fun a => Fin.ext (by match a with | ⟨0, _⟩ => rfl | ⟨1, _⟩ => rfl)

/-- The column of row factors, broadcast along the rows, reads at `(p, q)` the factor of row `p`. -/
theorem idx_v4_v10 (p : Fin 4096) (q : Fin 7168) : idx_main_v4 (idx_main_v10 (ix2 p q)) = ix1 p :=
  funext fun a => Fin.ext (by match a with | ⟨0, _⟩ => rfl)

/-- The weights, broadcast down the columns, read at `(p, q)` weight `q`. -/
theorem idx_v12_v13 (p : Fin 4096) (q : Fin 7168) : idx_main_v12 (idx_main_v13 (ix2 p q)) = ix1 q :=
  funext fun a => Fin.ext (by match a with | ⟨0, _⟩ => rfl)

/-- The reference's residual stream at `(p, q)`: zero plus the four partial results, plus the residual. -/
theorem v1_apply (x0 : (⟨S4x4096x7168, .f32⟩ : BufTy).Contents (Elt Ideal)) (x1 : (⟨S4096x7168, .f32⟩ : BufTy).Contents (Elt Ideal))
    (p : Fin 4096) (q : Fin 7168) : val_main_v1 (F := Ideal) x0 x1 (ix2 p q) = resid x0 x1 p q := by
  rw [val_main_v1_apply, val_main_v0_apply, val_main_cst_apply, Fin.sum_univ_four]
  simp only [idx_v0, Ideal.addf_def, Ideal.ofBits_def, Ideal.ofBits_zero_f32, zero_add]
  rfl

/-- The reference's second result is the residual stream. -/
theorem v1_eq (x0 : (⟨S4x4096x7168, .f32⟩ : BufTy).Contents (Elt Ideal)) (x1 : (⟨S4096x7168, .f32⟩ : BufTy).Contents (Elt Ideal)) :
    val_main_v1 (F := Ideal) x0 x1 = residArr x0 x1 := by
  funext i
  obtain ⟨p, q, rfl⟩ : ∃ (p : Fin 4096) (q : Fin 7168), i = ix2 p q := ⟨i 0, i 1, eq_ix2 i⟩
  exact v1_apply x0 x1 p q

/-- The reference's row factor: zero plus the row's sum of squares, over 7168, plus the constant, under the
    reciprocal square root. -/
theorem v9_apply (x0 : (⟨S4x4096x7168, .f32⟩ : BufTy).Contents (Elt Ideal)) (x1 : (⟨S4096x7168, .f32⟩ : BufTy).Contents (Elt Ideal))
    (p : Fin 4096) (q : Fin 7168) : val_main_v9 (F := Ideal) x0 x1 (idx_main_v10 (ix2 p q)) = rowScale x0 x1 p := by
  rw [val_main_v9_apply, val_main_v8_apply, val_main_v6_apply, val_main_v7_apply, val_main_v5_apply, val_main_v4_apply,
    val_main_cst_2_apply, val_main_cst_1_apply, idx_v4_v10, val_main_v3_apply, val_main_cst_0_apply]
  simp only [idx_v3, val_main_v2_apply, v1_apply, Ideal.addf_def, Ideal.mulf_def, Ideal.ofBits_def, Ideal.ofBits_zero_f32,
    zero_add, Ideal.hostDivf_def, Ideal.hostUnary_rsqrt_def]
  rfl

/-- The reference's first result is the normalised array. -/
theorem v14_eq (x0 : (⟨S4x4096x7168, .f32⟩ : BufTy).Contents (Elt Ideal)) (x1 : (⟨S4096x7168, .f32⟩ : BufTy).Contents (Elt Ideal))
    (x2 : (⟨S7168, .f32⟩ : BufTy).Contents (Elt Ideal)) :
    val_main_v14 (F := Ideal) x0 x1 x2 = normedArr x0 x1 x2 := by
  funext i
  obtain ⟨p, q, rfl⟩ : ∃ (p : Fin 4096) (q : Fin 7168), i = ix2 p q := ⟨i 0, i 1, eq_ix2 i⟩
  rw [val_main_v14_apply, val_main_v11_apply, val_main_v13_apply, val_main_v12_apply, val_main_v10_apply, v9_apply, v1_apply,
    idx_v12_v13, normedArr_apply]
  rfl

end Cert.ReferenceIdeal.IsSpec

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelBlock.lean ====
/-
  What one grid step leaves in its two output blocks, entry by entry.

  A step holds a [4, 64, 7168] block `x0` of the partial results, a [64, 7168] block `x1` of the residual and the
  [1, 7168] row `x2` of weights. It loads the four [1, 64, 7168] slabs of `x0`, adds them in order, adds `x1`
  (`blockResid`), and stores that as the block of the new residual stream; it then sums the squares along each
  row, divides by 7168, adds the small constant, takes the reciprocal square root, and stores the residual block
  times that column times the weight row. A slab load at offset `k` on the leading axis reads `x0` at `(k, p, q)`;
  the row sum read at row `p` is the sum over the row's columns. When the blocks are rows `64·b …` of the whole
  arrays, these entries are the specification's at row `64·b + p`.
-/
import proofs.«170400_j56994216018564_2_alg».proof.Proof.Gen.KernelIdeal.Value
import proofs.«170400_j56994216018564_2_alg».proof.Proof.Spec
import proofs.«170400_j56994216018564_2_alg».proof.Proof.LibLayout

noncomputable section
namespace Cert.KernelIdeal.Block
open Cert.KernelIdeal Cert.KernelIdeal.Gen Idealize.ShloMosaic Idealize.ShloMosaic.ValueIdx Cert.ResidNorm

/-- The zero offsets of a whole-block access. -/
theorem hz2 : (![0, 0] : Fin 2 → Nat) = fun _ => 0 := funext fun a => by fin_cases a <;> rfl

/-- Entry `(p, q)` of a step's block of the new residual stream: the four slabs added in order, then the residual block. -/
def blockResid (x0 : Vec Ideal S4x64x7168 .f32) (x1 : Vec Ideal S64x7168 .f32) (p : Fin 64) (q : Fin 7168) : EReal :=
  x0 (ix3 (0 : Fin 4) p q) + x0 (ix3 (1 : Fin 4) p q) + x0 (ix3 (2 : Fin 4) p q) + x0 (ix3 (3 : Fin 4) p q) + x1 (ix2 p q)

/-- A load of slab 0 reads the block at `(0, p, q)`. -/
theorem ld_part0 (x0 : Vec Ideal S4x64x7168 .f32) (j : S1x64x7168.Idx) (p : Fin 64) (q : Fin 7168) (h1 : (j 1).val = p.val) (h2 : (j 2).val = q.val) :
    View.ld x0 r0_0 j = x0 (ix3 (0 : Fin 4) p q) := by
  show x0 _ = x0 _
  refine congrArg x0 (funext fun a => Fin.ext ?_)
  have h0 : (j 0).val < 1 := (j 0).isLt
  match a with
  | ⟨0, _⟩ => show 0 + 1 * (j 0).val = 0; omega
  | ⟨1, _⟩ => show 0 + 1 * (j 1).val = p.val; omega
  | ⟨2, _⟩ => show 0 + 1 * (j 2).val = q.val; omega

/-- A load of slab 1 reads the block at `(1, p, q)`. -/
theorem ld_part1 (x0 : Vec Ideal S4x64x7168 .f32) (j : S1x64x7168.Idx) (p : Fin 64) (q : Fin 7168) (h1 : (j 1).val = p.val) (h2 : (j 2).val = q.val) :
    View.ld x0 r0_1 j = x0 (ix3 (1 : Fin 4) p q) := by
  show x0 _ = x0 _
  refine congrArg x0 (funext fun a => Fin.ext ?_)
  have h0 : (j 0).val < 1 := (j 0).isLt
  match a with
  | ⟨0, _⟩ => show 1 + 1 * (j 0).val = 1; omega
  | ⟨1, _⟩ => show 0 + 1 * (j 1).val = p.val; omega
  | ⟨2, _⟩ => show 0 + 1 * (j 2).val = q.val; omega

/-- A load of slab 2 reads the block at `(2, p, q)`. -/
theorem ld_part2 (x0 : Vec Ideal S4x64x7168 .f32) (j : S1x64x7168.Idx) (p : Fin 64) (q : Fin 7168) (h1 : (j 1).val = p.val) (h2 : (j 2).val = q.val) :
    View.ld x0 r0_2 j = x0 (ix3 (2 : Fin 4) p q) := by
  show x0 _ = x0 _
  refine congrArg x0 (funext fun a => Fin.ext ?_)
  have h0 : (j 0).val < 1 := (j 0).isLt
  match a with
  | ⟨0, _⟩ => show 2 + 1 * (j 0).val = 2; omega
  | ⟨1, _⟩ => show 0 + 1 * (j 1).val = p.val; omega
  | ⟨2, _⟩ => show 0 + 1 * (j 2).val = q.val; omega

/-- A load of slab 3 reads the block at `(3, p, q)`. -/
theorem ld_part3 (x0 : Vec Ideal S4x64x7168 .f32) (j : S1x64x7168.Idx) (p : Fin 64) (q : Fin 7168) (h1 : (j 1).val = p.val) (h2 : (j 2).val = q.val) :
    View.ld x0 r0_3 j = x0 (ix3 (3 : Fin 4) p q) := by
  show x0 _ = x0 _
  refine congrArg x0 (funext fun a => Fin.ext ?_)
  have h0 : (j 0).val < 1 := (j 0).isLt
  match a with
  | ⟨0, _⟩ => show 3 + 1 * (j 0).val = 3; omega
  | ⟨1, _⟩ => show 0 + 1 * (j 1).val = p.val; omega
  | ⟨2, _⟩ => show 0 + 1 * (j 2).val = q.val; omega

/-- A whole load of the residual block reads it where the index says. -/
theorem ld_res (x1 : Vec Ideal S64x7168 .f32) (j : S64x7168.Idx) (p : Fin 64) (q : Fin 7168) (h0 : (j 0).val = p.val) (h1 : (j 1).val = q.val) :
    View.ld x1 r0_4 j = x1 (ix2 p q) := by
  show x1 _ = x1 _
  refine congrArg x1 (funext fun a => Fin.ext ?_)
  match a with
  | ⟨0, _⟩ => show 0 + 1 * (j 0).val = p.val; omega
  | ⟨1, _⟩ => show 0 + 1 * (j 1).val = q.val; omega

/-- A whole load of the weight row reads weight `q`. -/
theorem ld_w (x2 : Vec Ideal S1x7168 .f32) (j : S1x7168.Idx) (q : Fin 7168) (h1 : (j 1).val = q.val) :
    View.ld x2 r0_5 j = x2 (ix2 (0 : Fin 1) q) := by
  show x2 _ = x2 _
  refine congrArg x2 (funext fun a => Fin.ext ?_)
  have h0 : (j 0).val < 1 := (j 0).isLt
  match a with
  | ⟨0, _⟩ => show 0 + 1 * (j 0).val = 0; omega
  | ⟨1, _⟩ => show 0 + 1 * (j 1).val = q.val; omega

/-- The block stored to the new residual stream is `blockResid`. -/
theorem out4_apply (x0 : Vec Ideal S4x64x7168 .f32) (x1 : Vec Ideal S64x7168 .f32) (x2 : Vec Ideal S1x7168 .f32) (p : Fin 64) (q : Fin 7168) :
    out0_4 x0 x1 x2 (ix2 p q) = blockResid x0 x1 p q := by
  unfold out0_4
  rw [Value.canon4_eq]
  simp only [Value.E4, Ideal.addf_def]
  rw [ld_part0 x0 (Value.ix4_0 (ix2 p q)) p q rfl rfl, ld_part1 x0 (Value.ix4_1 (ix2 p q)) p q rfl rfl,
    ld_part2 x0 (Value.ix4_2 (ix2 p q)) p q rfl rfl, ld_part3 x0 (Value.ix4_3 (ix2 p q)) p q rfl rfl,
    ld_res x1 (Value.ix4_4 (ix2 p q)) p q rfl rfl]
  rfl

/-- The value the step squares and scales is that same block. -/
theorem pay1_apply (x0 : Vec Ideal S4x64x7168 .f32) (x1 : Vec Ideal S64x7168 .f32) (p : Fin 64) (q : Fin 7168) :
    k0_pay1 (View.ld x0 r0_0) (View.ld x0 r0_1) (View.ld x0 r0_2) (View.ld x0 r0_3) (View.ld x1 r0_4) (ix2 p q) = blockResid x0 x1 p q := by
  refine (congrFun (View.canon_unit_zero (Val := Elt Ideal) (S := S64x7168) (e := .f32) hz2 inb_S64x7168_S64x7168_0_0 (k0_pay1 (View.ld x0 r0_0) (View.ld x0 r0_1) (View.ld x0 r0_2) (View.ld x0 r0_3) (View.ld x1 r0_4))) (ix2 p q)).symm.trans ?_
  exact out4_apply x0 x1 (fun _ => 0) p q

/-- Equal entries, equal row sums and equal weights give equal scaled entries. -/
theorem scale_congr {a a' s s' c c' : EReal} (k1 k2 : EReal) (ha : a = a') (hs : s = s') (hc : c = c') :
    a * Ideal.rsqrt (Ideal.div s k1 + k2) * c = a' * Ideal.rsqrt (Ideal.div s' k1 + k2) * c' := by rw [ha, hs, hc]

/-- The normalised block: the residual block's entry times the reciprocal root of (row sum of squares over 7168,
    plus the constant) times the weight. -/
theorem out3_apply (x0 : Vec Ideal S4x64x7168 .f32) (x1 : Vec Ideal S64x7168 .f32) (x2 : Vec Ideal S1x7168 .f32) (p : Fin 64) (q : Fin 7168) :
    out0_3 x0 x1 x2 (ix2 p q) = blockResid x0 x1 p q * Ideal.rsqrt (Ideal.div (∑ k : Fin 7168, blockResid x0 x1 p k * blockResid x0 x1 p k) (Ideal.ofBits .f32 0x45E00000#32) + Ideal.ofBits .f32 0x358637BD#32) * x2 (ix2 (0 : Fin 1) q) := by
  unfold out0_3
  rw [Value.canon3_eq]
  simp only [Value.E3, Ideal.mulf_def, Ideal.addf_def, Ideal.divf_def, Ideal.rsqrt_def, Ideal.ofBits_def]
  rw [ld_part0 x0 (Value.ix3_0 (ix2 p q)) p q rfl rfl, ld_part1 x0 (Value.ix3_1 (ix2 p q)) p q rfl rfl,
    ld_part2 x0 (Value.ix3_2 (ix2 p q)) p q rfl rfl, ld_part3 x0 (Value.ix3_3 (ix2 p q)) p q rfl rfl,
    ld_res x1 (Value.ix3_4 (ix2 p q)) p q rfl rfl, ld_w x2 (Value.ix3_6 (ix2 p q)) q rfl]
  refine scale_congr _ _ rfl ?_ rfl
  rw [show Value.ix3_5 (ix2 p q) = ix1 p from funext fun a => Fin.ext (by match a with | ⟨0, _⟩ => rfl)]
  refine (Cert.Attn.Layout.rowSum_apply _ _ _ _ p).trans ?_
  refine Finset.sum_congr rfl fun k _ => ?_
  show k0_pay1 (View.ld x0 r0_0) (View.ld x0 r0_1) (View.ld x0 r0_2) (View.ld x0 r0_3) (View.ld x1 r0_4) (ix2 p k)
      * k0_pay1 (View.ld x0 r0_0) (View.ld x0 r0_1) (View.ld x0 r0_2) (View.ld x0 r0_3) (View.ld x1 r0_4) (ix2 p k) = _
  rw [pay1_apply]

/-- Row `p` of block `b` is row `64·b + p` of the whole array. -/
abbrev rowOf (b p : Fin 64) : Fin 4096 := ⟨b.val * 64 + p.val, by have := b.isLt; have := p.isLt; omega⟩

/-- When the step's blocks are rows `64·b …` of the whole arrays, the residual block's entries are the
    specification's. -/
theorem blockResid_eq (x0 : Vec Ideal S4x64x7168 .f32) (x1 : Vec Ideal S64x7168 .f32)
    (H : (⟨3, ![4, 4096, 7168]⟩ : Shape).Idx → EReal) (R : (⟨2, ![4096, 7168]⟩ : Shape).Idx → EReal) (b : Fin 64)
    (h0 : ∀ (k : Fin 4) (p : Fin 64) (q : Fin 7168), x0 (ix3 k p q) = H (ix3 k (rowOf b p) q))
    (h1 : ∀ (p : Fin 64) (q : Fin 7168), x1 (ix2 p q) = R (ix2 (rowOf b p) q)) (p : Fin 64) (q : Fin 7168) :
    blockResid x0 x1 p q = resid H R (rowOf b p) q := by
  unfold blockResid resid
  rw [h0, h0, h0, h0, h1]

/-- The stored residual block, entry by entry, is the specification's residual stream on the block's rows. -/
theorem out4_rows (x0 : Vec Ideal S4x64x7168 .f32) (x1 : Vec Ideal S64x7168 .f32) (x2 : Vec Ideal S1x7168 .f32)
    (H : (⟨3, ![4, 4096, 7168]⟩ : Shape).Idx → EReal) (R : (⟨2, ![4096, 7168]⟩ : Shape).Idx → EReal) (b : Fin 64)
    (h0 : ∀ (k : Fin 4) (p : Fin 64) (q : Fin 7168), x0 (ix3 k p q) = H (ix3 k (rowOf b p) q))
    (h1 : ∀ (p : Fin 64) (q : Fin 7168), x1 (ix2 p q) = R (ix2 (rowOf b p) q)) (p : Fin 64) (q : Fin 7168) :
    out0_4 x0 x1 x2 (ix2 p q) = resid H R (rowOf b p) q :=
  (out4_apply x0 x1 x2 p q).trans (blockResid_eq x0 x1 H R b h0 h1 p q)

/-- The stored normalised block, entry by entry, is the specification's normalised array on the block's rows. -/
theorem out3_rows (x0 : Vec Ideal S4x64x7168 .f32) (x1 : Vec Ideal S64x7168 .f32) (x2 : Vec Ideal S1x7168 .f32)
    (H : (⟨3, ![4, 4096, 7168]⟩ : Shape).Idx → EReal) (R : (⟨2, ![4096, 7168]⟩ : Shape).Idx → EReal)
    (W : (⟨1, ![7168]⟩ : Shape).Idx → EReal) (b : Fin 64)
    (h0 : ∀ (k : Fin 4) (p : Fin 64) (q : Fin 7168), x0 (ix3 k p q) = H (ix3 k (rowOf b p) q))
    (h1 : ∀ (p : Fin 64) (q : Fin 7168), x1 (ix2 p q) = R (ix2 (rowOf b p) q))
    (h2 : ∀ q : Fin 7168, x2 (ix2 (0 : Fin 1) q) = W (ix1 q)) (p : Fin 64) (q : Fin 7168) :
    out0_3 x0 x1 x2 (ix2 p q) = resid H R (rowOf b p) q * rowScale H R (rowOf b p) * W (ix1 q) := by
  rw [out3_apply, h2]
  unfold rowScale
  simp only [blockResid_eq x0 x1 H R b h0 h1]

end Cert.KernelIdeal.Block
end
-- ==== Proof.KernelArray.lean ====
/-
  The kernel's two result arrays after the whole grid.

  The grid has 64 steps; step `t` works on rows `64·t … 64·t + 63`: its block of the partial results is those
  rows of all four slabs, its block of the residual those rows, and the weight row is the same at every step
  (the one-row view of the weight vector that the host makes before the launch). So what step `t` writes back
  (`KernelBlock`) is rows `64·t …` of the specification's arrays; the 64 output blocks cover every row (row `r`
  lies in block `r / 64`), hence each result array IS the specification's array, and the run ends with the
  normalised array and the new residual stream in the two results and the arguments unchanged.
-/
import proofs.«170400_j56994216018564_2_alg».proof.Proof.Gen.KernelIdeal.Value
import proofs.«170400_j56994216018564_2_alg».proof.Proof.KernelBlock
import Idealize.ShloMosaic.Lib.Pipeline.Value
import Idealize.ShloMosaic.Lib.StableHlo.Run
import Idealize.ShloMosaic.Lib.ValueIdx

noncomputable section
namespace Cert.KernelIdeal.Whole
open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)
open Cert.ResidNorm Cert.KernelIdeal.Block

variable (m : (ℓ : Loc nD τ sig) → Buf (Elt Ideal) ℓ) (ρ : Dev nD → PrngReg)

/-- The windows' block numbers at step `t`, decided over the 64 steps: the row-blocked windows sit at block `t`
    of the row axis and at block 0 elsewhere, the weight row always at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The grid step as a block number. -/
abbrev blockOf (t : Fin cfg0.N) : Fin 64 := ⟨t.val, Nat.lt_of_lt_of_eq t.isLt N_0⟩

/-- The weight window's array at the launch is the weight vector viewed as one row. -/
theorem V_w (c : Dev nD) : (V m c main_v0 : S1x7168.Idx → EReal) = shapeCast S1x7168 (m ((c : Thread nD τ).loc main_arg2) : S7168.Idx → EReal) shapeCasts_S7168_S1x7168 := by
  dsimp only [Gen.V, Gen.hostOps0]
  after_results
  rfl

/-- Step `t`'s block of the partial results is rows `64·t …` of each slab. -/
theorem iblk0_apply (c : Dev nD) (t : Fin cfg0.N) (k : Fin 4) (p : Fin 64) (q : Fin 7168) :
    (iblk m c 0 t : Vec Ideal S4x64x7168 .f32) (ix3 k p q)
      = (m ((c : Thread nD τ).loc main_arg0) : S4x4096x7168.Idx → EReal) (ix3 k (rowOf (blockOf t) p) q) := by
  obtain ⟨e0, e1, e2, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 3) * 4 + 1 * k.val = k.val; rw [e0]; omega
  | ⟨1, _⟩ => show win0_0.index t (1 : Fin 3) * 64 + 1 * p.val = t.val * 64 + p.val; rw [e1]; omega
  | ⟨2, _⟩ => show win0_0.index t (2 : Fin 3) * 7168 + 1 * q.val = q.val; rw [e2]; omega

/-- Step `t`'s block of the residual is its rows `64·t …`. -/
theorem iblk1_apply (c : Dev nD) (t : Fin cfg0.N) (p : Fin 64) (q : Fin 7168) :
    (iblk m c 1 t : Vec Ideal S64x7168 .f32) (ix2 p q)
      = (m ((c : Thread nD τ).loc main_arg1) : S4096x7168.Idx → EReal) (ix2 (rowOf (blockOf t) p) q) := by
  obtain ⟨-, -, -, e0, e1, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 64 + 1 * p.val = t.val * 64 + p.val; rw [e0]; omega
  | ⟨1, _⟩ => show win0_1.index t (1 : Fin 2) * 7168 + 1 * q.val = q.val; rw [e1]; omega

/-- Every step's weight row is the weight vector. -/
theorem iblk2_apply (c : Dev nD) (t : Fin cfg0.N) (q : Fin 7168) :
    (iblk m c 2 t : Vec Ideal S1x7168 .f32) (ix2 (0 : Fin 1) q)
      = (m ((c : Thread nD τ).loc main_arg2) : S7168.Idx → EReal) (ix1 q) := by
  obtain ⟨-, -, -, -, -, e0, e1, -⟩ := idx_facts t
  unfold iblk
  rw [View.read_apply]
  show (V m c main_v0 : S1x7168.Idx → EReal) _ = _
  rw [V_w]
  refine shapeCast_apply _ _ _ (ix1 q) ?_
  rw [Shape.rowMajor_val_one, Shape.rowMajor_val_two]
  show q.val = (win0_2.index t (0 : Fin 2) * 1 + 1 * 0) * 7168 + (win0_2.index t (1 : Fin 2) * 7168 + 1 * q.val)
  rw [e0, e1]; omega

/-- What step `t` writes back to the residual-stream result is block `t` of the specification's residual stream. -/
theorem flushed4_eq (c : Dev nD) (t : Fin cfg0.N) :
    (dats m 0 c).flushed 4 t = ((cfg0.win 4).blk t).view.read (Elt Ideal)
      (residArr (m ((c : Thread nD τ).loc main_arg0)) (m ((c : Thread nD τ).loc main_arg1))) := by
  obtain ⟨-, -, -, -, -, -, -, -, -, e0, e1⟩ := idx_facts t
  rw [flushed4]
  funext j
  show out0_4 (iblk m c 0 t) (iblk m c 1 t) (iblk m c 2 t) j = residArr _ _ (((cfg0.win 4).blk t).view.emb j)
  have hj : j = ix2 (j 0) (j 1) := eq_ix2 (n0 := 64) (n1 := 7168) j
  have key := out4_rows (iblk m c 0 t) (iblk m c 1 t) (iblk m c 2 t) (m ((c : Thread nD τ).loc main_arg0)) (m ((c : Thread nD τ).loc main_arg1)) (blockOf t) (iblk0_apply m c t) (iblk1_apply m c t) (j 0) (j 1)
  refine (congrArg (out0_4 (iblk m c 0 t) (iblk m c 1 t) (iblk m c 2 t)) hj).trans ?_
  refine key.trans ?_
  show resid _ _ _ _ = resid _ _ _ _
  refine congrArg₂ (resid _ _) (Fin.ext ?_) (Fin.ext ?_)
  · show t.val * 64 + (j 0).val = win0_4.index t (0 : Fin 2) * 64 + 1 * (j 0).val; rw [e0]; omega
  · show (j 1).val = win0_4.index t (1 : Fin 2) * 7168 + 1 * (j 1).val; rw [e1]; omega

/-- What step `t` writes back to the normalised result is block `t` of the specification's normalised array. -/
theorem flushed3_eq (c : Dev nD) (t : Fin cfg0.N) :
    (dats m 0 c).flushed 3 t = ((cfg0.win 3).blk t).view.read (Elt Ideal)
      (normedArr (m ((c : Thread nD τ).loc main_arg0)) (m ((c : Thread nD τ).loc main_arg1)) (m ((c : Thread nD τ).loc main_arg2))) := by
  obtain ⟨-, -, -, -, -, -, -, e0, e1, -⟩ := idx_facts t
  rw [flushed3]
  funext j
  show out0_3 (iblk m c 0 t) (iblk m c 1 t) (iblk m c 2 t) j = normedArr _ _ _ (((cfg0.win 3).blk t).view.emb j)
  have hj : j = ix2 (j 0) (j 1) := eq_ix2 (n0 := 64) (n1 := 7168) j
  have key := out3_rows (iblk m c 0 t) (iblk m c 1 t) (iblk m c 2 t) (m ((c : Thread nD τ).loc main_arg0)) (m ((c : Thread nD τ).loc main_arg1)) (m ((c : Thread nD τ).loc main_arg2)) (blockOf t) (iblk0_apply m c t) (iblk1_apply m c t) (iblk2_apply m c t) (j 0) (j 1)
  refine (congrArg (out0_3 (iblk m c 0 t) (iblk m c 1 t) (iblk m c 2 t)) hj).trans ?_
  refine key.trans ?_
  have hr : rowOf (blockOf t) (j 0) = ((cfg0.win 3).blk t).view.emb j 0 := by
    apply Fin.ext
    show t.val * 64 + (j 0).val = win0_3.index t (0 : Fin 2) * 64 + 1 * (j 0).val
    rw [e0]; omega
  have hc : (j 1 : Fin 7168) = ((cfg0.win 3).blk t).view.emb j 1 := by
    apply Fin.ext
    show (j 1).val = win0_3.index t (1 : Fin 2) * 7168 + 1 * (j 1).val
    rw [e1]; omega
  show resid _ _ _ _ * rowScale _ _ _ * _ = resid _ _ _ _ * rowScale _ _ _ * _
  rw [hr, hc]

/-- An index lies in step `t`'s block of a [4096, 7168] result iff each coordinate lies in the block's range. -/
theorem mem_blk3 (t : Fin cfg0.N) (i : S4096x7168.Idx) :
    i ∈ ((cfg0.win 3).blk t).view.set ↔ ∀ a : Fin 2, win0_3.index t a * S64x7168.size a ≤ (i a).val ∧ (i a).val < win0_3.index t a * S64x7168.size a + S64x7168.size a := by
  show i ∈ ((View.whole main_v1_0).slice (win0_3.rect t)).set ↔ _
  rw [View.set_slice_whole, Rect.mem_set_unit]
  exact Iff.rfl

theorem mem_blk4 (t : Fin cfg0.N) (i : S4096x7168.Idx) :
    i ∈ ((cfg0.win 4).blk t).view.set ↔ ∀ a : Fin 2, win0_4.index t a * S64x7168.size a ≤ (i a).val ∧ (i a).val < win0_4.index t a * S64x7168.size a + S64x7168.size a := by
  show i ∈ ((View.whole main_v1_1).slice (win0_4.rect t)).set ↔ _
  rw [View.set_slice_whole, Rect.mem_set_unit]
  exact Iff.rfl

/-- Row `r` lies in the block of step `r / 64`. -/
theorem stepOfRow (i : S4096x7168.Idx) : ∃ t : Fin cfg0.N, t.val = (i 0).val / 64 := by
  have hi0 : (i 0).val < 4096 := (i 0).isLt
  exact ⟨⟨(i 0).val / 64, by rw [show cfg0.N = 64 from N_0]; omega⟩, rfl⟩

/-- The 64 blocks cover the normalised result. -/
theorem cover3 (i : S4096x7168.Idx) : ∃ t : Fin cfg0.N, (cfg0.win 3).flush t = true ∧ i ∈ ((cfg0.win 3).blk t).view.set := by
  have hi0 : (i 0).val < 4096 := (i 0).isLt
  have hi1 : (i 1).val < 7168 := (i 1).isLt
  obtain ⟨t, ht⟩ := stepOfRow i
  obtain ⟨-, -, -, -, -, -, -, e0, e1, -⟩ := idx_facts t
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; rw [e0, ht]; omega
  | ⟨1, _⟩ => show win0_3.index t (1 : Fin 2) * 7168 ≤ (i 1).val ∧ (i 1).val < win0_3.index t (1 : Fin 2) * 7168 + 7168; rw [e1]; omega

/-- The 64 blocks cover the residual-stream result. -/
theorem cover4 (i : S4096x7168.Idx) : ∃ t : Fin cfg0.N, (cfg0.win 4).flush t = true ∧ i ∈ ((cfg0.win 4).blk t).view.set := by
  have hi0 : (i 0).val < 4096 := (i 0).isLt
  have hi1 : (i 1).val < 7168 := (i 1).isLt
  obtain ⟨t, ht⟩ := stepOfRow i
  obtain ⟨-, -, -, -, -, -, -, -, -, e0, e1⟩ := idx_facts t
  refine ⟨t, flush0_4 t, ?_⟩
  rw [mem_blk4]
  intro a
  match a with
  | ⟨0, _⟩ => show win0_4.index t (0 : Fin 2) * 64 ≤ (i 0).val ∧ (i 0).val < win0_4.index t (0 : Fin 2) * 64 + 64; rw [e0, ht]; omega
  | ⟨1, _⟩ => show win0_4.index t (1 : Fin 2) * 7168 ≤ (i 1).val ∧ (i 1).val < win0_4.index t (1 : Fin 2) * 7168 + 7168; rw [e1]; omega

/-- After the grid the first result holds the normalised array of the arguments. -/
theorem final3 (c : Dev nD) : (dats m 0 c).arrAt 3 cfg0.N
    = normedArr (m ((c : Thread nD τ).loc main_arg0)) (m ((c : Thread nD τ).loc main_arg1)) (m ((c : Thread nD τ).loc main_arg2)) :=
  (dats m 0 c).arrAt_eq_of_cover 3 _ (fun t _ => flushed3_eq m c t) cover3

/-- After the grid the second result holds the new residual stream of the arguments. -/
theorem final4 (c : Dev nD) : (dats m 0 c).arrAt 4 cfg0.N
    = residArr (m ((c : Thread nD τ).loc main_arg0)) (m ((c : Thread nD τ).loc main_arg1)) :=
  (dats m 0 c).arrAt_eq_of_cover 4 _ (fun t _ => flushed4_eq m c t) cover4

/-- The kernel's run: it terminates with the two results at the specification's arrays of the arguments, the
    arguments unchanged. -/
theorem run : θ_run defs (onTc (τ := τ) (main (F := Ideal))) ⟨m, fun _ => 0, ρ⟩ fun r => ∀ c : Dev nD,
      r.2.mem ((c : Thread nD τ).loc main_v1_0) = normedArr (m ((c : Thread nD τ).loc main_arg0)) (m ((c : Thread nD τ).loc main_arg1)) (m ((c : Thread nD τ).loc main_arg2))
      ∧ r.2.mem ((c : Thread nD τ).loc main_v1_1) = residArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole
end
-- ==== Proof.lean ====
/-
  The proof of `Cert.Claim`: the tiled kernel that adds four partial results and a residual and then applies a
  root-mean-square normalisation with weights, against the plain array program that does the same.

  On the extended reals both programs compute one function of the three argument arrays (Proof/Spec.lean): entry
  `(p, q)` of the new residual stream is `h₀ + h₁ + h₂ + h₃ + r` at `(p, q)`, and the normalised entry is that
  times `1 / sqrt (mean of the row's squares + c)` times `w q`. The reference reads as that function operation by
  operation (Proof/RefSpec.lean: its sums start from zero, which adds nothing; sums of extended reals may be
  regrouped freely, so no finiteness of the inputs is used). The kernel works on 64 rows at a time; one step's two
  output blocks are those rows of the same function (Proof/KernelBlock.lean), and the 64 steps' blocks cover the
  result arrays (Proof/KernelArray.lean). The two results are paired in order: normalised array first, residual
  stream second. Nothing was rewritten when the kernel was read on the extended reals, so that conjunct is trivial;
  the three frames are the programs' runs with the results forgotten.
-/
import proofs.«170400_j56994216018564_2_alg».proof.Defs
import proofs.«170400_j56994216018564_2_alg».proof.Proof.Gen.Kernel
import proofs.«170400_j56994216018564_2_alg».proof.Proof.Gen.Kernel.Skeleton
import proofs.«170400_j56994216018564_2_alg».proof.Proof.Gen.Kernel.Launch
import proofs.«170400_j56994216018564_2_alg».proof.Proof.Gen.Kernel.Points
import proofs.«170400_j56994216018564_2_alg».proof.Proof.Gen.Kernel.Frame
import proofs.«170400_j56994216018564_2_alg».proof.Proof.Gen.KernelIdeal
import proofs.«170400_j56994216018564_2_alg».proof.Proof.Gen.KernelIdeal.Skeleton
import proofs.«170400_j56994216018564_2_alg».proof.Proof.Gen.KernelIdeal.Launch
import proofs.«170400_j56994216018564_2_alg».proof.Proof.Gen.KernelIdeal.Points
import proofs.«170400_j56994216018564_2_alg».proof.Proof.Gen.KernelIdeal.Frame
import proofs.«170400_j56994216018564_2_alg».proof.Proof.Gen.ReferenceIdeal
import proofs.«170400_j56994216018564_2_alg».proof.Proof.Gen.Pre_finite_inputs
import proofs.«170400_j56994216018564_2_alg».proof.Proof.Gen.KernelIdeal.Value
import proofs.«170400_j56994216018564_2_alg».proof.Proof.Gen.ReferenceIdeal.Run
import proofs.«170400_j56994216018564_2_alg».proof.Proof.Gen.ReferenceIdeal.Read
import proofs.«170400_j56994216018564_2_alg».proof.Proof.RefSpec
import proofs.«170400_j56994216018564_2_alg».proof.Proof.KernelArray
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with what it says about the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the normalised array and the new
    residual stream of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.IsSpec.v14_eq, (hagree c).1, (hagree c).2.1, (hagree c).2.2]
  · rw [Cert.ReferenceIdeal.Read.val_main_v1_eq, Cert.ReferenceIdeal.IsSpec.v1_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
